-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S640000 32) (main_arg2 : IVec S640000 32) (main_arg3 : FVec F S128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S4000x128 : Shape := ⟨2, ![4000, 128]⟩
abbrev S4000 : Shape := ⟨1, ![4000]⟩
abbrev S4000x1 : Shape := ⟨2, ![4000, 1]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩

abbrev nBuf : Space → Nat
  | .hbm => 35
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S100000x128, .f32⟩
  | .hbm, ⟨20, _⟩ => ⟨S640000x1, .i32⟩
  | .hbm, ⟨21, _⟩ => ⟨S100000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S100000, .f32⟩
  | .hbm, ⟨26, _⟩ => ⟨S640000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000 : Shape := ⟨1, ![640000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S640000x1 : Shape := ⟨2, ![640000, 1]⟩
abbrev S640000x128 : Shape := ⟨2, ![640000, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S_, .f32⟩
  | .hbm, ⟨12, _⟩ => ⟨S100000x1, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S_, .f32⟩
  | .hbm, ⟨51, _⟩ => ⟨S640000, .f32⟩
  | .hbm, ⟨52, _⟩ => ⟨S_, .f32⟩
  | .hbm, ⟨53, _⟩ => ⟨S100000, .f32⟩
  | .hbm, ⟨54, _⟩ => ⟨S640000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its RESULT array named.

  @main is three segments: the row-normalization region, a stretch of host operations (the edge gather, the two
  scatter-adds and the division by the clamped degree), and the combine region. The buffer contents at the segment
  boundaries are the fold `Gen.W0 … Gen.W3`; every weakly fair execution ends with each unscoped buffer at `Gen.W3`.
  The frame theorem reads only the argument arrays off that final state; here the result array is read off it as
  well: it ends at `Gen.W3 … main_v20`, which is what the combine region's write-backs leave
  (`(Gen.dat1 (Gen.V2 m ρ) c).arrAt 5 cfg1.N`).
-/
import proofs.«168293_j10359461118095_1_alg».proof.Proof.Gen.KernelIdeal.Frame

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_out : θ_run defs (onTc (τ := τ) (main (F := F))) ⟨m, fun _ => 0, ρ⟩ (fun r => ∀ c : Dev nD,
      r.2.mem ((c.tc : Thread nD τ).loc main_v20) = W3 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v20 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.OutRun

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.Spec.lean ====
/-
  The mathematics both programs compute, on the extended reals, index by index.

  For a node-feature array `h` of 100000 rows and 128 columns:

  * ROW NORMALIZATION. Row `r` of `h` is centred by its mean (the sum of its 128 entries divided by 128), its variance
    is the mean of the squared centred entries, and the entry at column `q` is
    `(h r q − mean) · rsqrt (variance + ε) · γ q + β q` (`normRow`).
  * COMBINATION. With `hn` the normalized array and `hneigh` the neighbour means, the result at `(r, q)` is
    `Σ_k hn r k · Wself k q + Σ_k hneigh r k · Wneigh k q + b q` (`combRow`).

  The constants are kept as the words both programs print (128.0 and the single-precision ε nearest 1e-5): the
  same word on both sides is never evaluated.
-/
import Idealize.ShloMosaic.PureOps.Ideal
import Idealize.ShloMosaic.Lib.ValueIdx

noncomputable section

open scoped BigOperators

namespace Cert.SageSpec

open Idealize.ShloMosaic Idealize.ShloMosaic.ValueIdx

/-- The divisor 128 of both means, as the word the programs print. -/
abbrev c128 : EReal := Ideal.ofBits .f32 0x43000000#32
/-- The variance offset ε, as the word the programs print. -/
abbrev cEps : EReal := Ideal.ofBits .f32 0x3727C5AC#32

/-- The mean of a row of 128 entries. -/
def rowMean (row : Fin 128 → EReal) : EReal := Ideal.div (∑ k : Fin 128, row k) c128

/-- The mean of the squared deviations of a row from its mean. -/
def rowVar (row : Fin 128 → EReal) : EReal :=
  Ideal.div (∑ k : Fin 128, (row k - rowMean row) * (row k - rowMean row)) c128

/-- One entry of a normalized row: centred, scaled by the reciprocal square root of variance + ε, then by the
    column's gain `g`, and shifted by the column's offset `b`. -/
def normRow (row : Fin 128 → EReal) (g b : EReal) (q : Fin 128) : EReal :=
  (row q - rowMean row) * Ideal.rsqrt (rowVar row + cEps) * g + b

/-- One entry of the combination: the row of normalized features against a column of the self weights, plus the row
    of neighbour means against a column of the neighbour weights, plus the column's bias. -/
def combRow (rowA rowB colA colB : Fin 128 → EReal) (bias : EReal) : EReal :=
  (∑ k : Fin 128, rowA k * colA k) + (∑ k : Fin 128, rowB k * colB k) + bias

/-- Row normalization of a whole array of `n` rows (the node array, or one block of 4000 rows of it). -/
def norm {n : Nat} (h : (⟨2, ![n, 128]⟩ : Shape).Idx → EReal) (γ β : (⟨1, ![128]⟩ : Shape).Idx → EReal) :
    (⟨2, ![n, 128]⟩ : Shape).Idx → EReal :=
  fun i => normRow (fun k => h (ix2 (i 0) k)) (γ (ix1 (i 1))) (β (ix1 (i 1))) (i 1)

/-- The combination over a whole array of `n` rows. -/
def comb {n : Nat} (hn hneigh : (⟨2, ![n, 128]⟩ : Shape).Idx → EReal)
    (ws wn : (⟨2, ![128, 128]⟩ : Shape).Idx → EReal) (b : (⟨1, ![128]⟩ : Shape).Idx → EReal) :
    (⟨2, ![n, 128]⟩ : Shape).Idx → EReal :=
  fun i => combRow (fun k => hn (ix2 (i 0) k)) (fun k => hneigh (ix2 (i 0) k))
    (fun k => ws (ix2 k (i 1))) (fun k => wn (ix2 k (i 1))) (b (ix1 (i 1)))

theorem norm_apply {n : Nat} (h : (⟨2, ![n, 128]⟩ : Shape).Idx → EReal) (γ β : (⟨1, ![128]⟩ : Shape).Idx → EReal)
    (r : Fin n) (q : Fin 128) :
    norm h γ β (ix2 r q) = normRow (fun k => h (ix2 r k)) (γ (ix1 q)) (β (ix1 q)) q := rfl

theorem comb_apply {n : Nat} (hn hneigh : (⟨2, ![n, 128]⟩ : Shape).Idx → EReal)
    (ws wn : (⟨2, ![128, 128]⟩ : Shape).Idx → EReal) (b : (⟨1, ![128]⟩ : Shape).Idx → EReal) (r : Fin n) (q : Fin 128) :
    comb hn hneigh ws wn b (ix2 r q) = combRow (fun k => hn (ix2 r k)) (fun k => hneigh (ix2 r k))
      (fun k => ws (ix2 k q)) (fun k => wn (ix2 k q)) (b (ix1 q)) := rfl

end Cert.SageSpec

end
-- ==== Proof.KernelNorm.lean ====
/-
  The normalization kernel's body, read at one entry of its output block.

  The body loads a block of 4000 rows (all 128 columns), the gain row and the offset row, and stores one block. At
  row `p`, column `q` of the block the stored value is the normalized entry of row `p` of the loaded block
  (`SageSpec.normRow`): the lane sums are sums over the column coordinate, the `[4000] → [4000, 1] → [4000, 128]`
  cast and broadcast read the column's entry at row `p`, and the `[128] → [1, 128] → [4000, 128]` ones read the row's
  entry at column `q`.
-/
import proofs.«168293_j10359461118095_1_alg».proof.Proof.Gen.KernelIdeal.Skeleton
import proofs.«168293_j10359461118095_1_alg».proof.Proof.LibKeepdims
import proofs.«168293_j10359461118095_1_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.SageSpec
open Idealize.ShloMosaic Idealize.ShloMosaic.ValueIdx

/-- A row sum kept as a column `[4000, 1]`: at row `p` it is the sum of the row's 128 entries. -/
theorem sumCol_apply (v : FVec Ideal S4000x128 .f32) (hr : S4000x128.Reduces [1] S4000) (hc : S4000.ShapeCasts S4000x1)
    (hacc : (0x00000000#32 : BitVec 32) = 0x00000000#32) (p : Fin 4000) (z : Fin 1) :
    shapeCast S4000x1 (multiReduction .add [1] S4000 v 0x00000000#32 hr (.inl rfl) hacc) hc (ix2 p z)
      = ∑ k : Fin 128, v (ix2 p k) :=
  (Keepdims.cast_col_apply _ hc p z).trans (Keepdims.rowSum2_apply v 0x00000000#32 hr (.inl rfl) hacc p)

/-- A column `[4000, 1]` broadcast over 128 lanes reads the column at its row. -/
theorem colBcast_apply (u : FVec Ideal S4000x1 .f32) (hb : S4000x1.Broadcasts S4000x128) (p : Fin 4000) (q : Fin 128) :
    broadcastTo S4000x128 u hb (ix2 p q) = u (ix2 p 0) :=
  Keepdims.bcast_col_apply u hb p q

/-- A row `[128]` viewed `[1, 128]` and broadcast over 4000 rows reads the row at its column. -/
theorem rowBcast_apply (w : FVec Ideal S128 .f32) (hc : S128.ShapeCasts S1x128) (hb : S1x128.Broadcasts S4000x128)
    (p : Fin 4000) (q : Fin 128) :
    broadcastTo S4000x128 (shapeCast S1x128 w hc) hb (ix2 p q) = w (ix1 q) :=
  (broadcastTo_1b_ab_apply _ hb p q).trans (shapeCast_a_1a_apply w hc 0 q)

/-- The stored block at `(p, q)`: the normalized entry of row `p` of the loaded block. -/
theorem pay_norm (x0 : FVec Ideal S4000x128 .f32) (x1 x2 : FVec Ideal S128 .f32) (p : Fin 4000) (q : Fin 128) :
    k0_pay1 (F := Ideal) x0 x1 x2 (ix2 p q) = normRow (fun k => x0 (ix2 p k)) (x1 (ix1 q)) (x2 (ix1 q)) q := by
  have hmean : ∀ z : Fin 1,
      divf (shapeCast S4000x1 (multiReduction .add [1] S4000 x0 0x00000000#32 reduces_S4000x128_S4000 (.inl rfl) rfl)
        shapeCasts_S4000_S4000x1) (broadcast S4000x1 (Scalar.ofBits (F := Ideal) .f32 0x43000000#32)) (ix2 p z)
        = rowMean (fun k => x0 (ix2 p k)) := fun z =>
    congrArg (Ideal.div · c128) (sumCol_apply x0 _ _ rfl p z)
  unfold k0_pay1
  show (x0 (ix2 p q) - broadcastTo S4000x128 _ broadcasts_S4000x1_S4000x128 (ix2 p q))
      * broadcastTo S4000x128 _ broadcasts_S4000x1_S4000x128 (ix2 p q)
      * broadcastTo S4000x128 (shapeCast S1x128 x1 shapeCasts_S128_S1x128) broadcasts_S1x128_S4000x128 (ix2 p q)
      + broadcastTo S4000x128 (shapeCast S1x128 x2 shapeCasts_S128_S1x128) broadcasts_S1x128_S4000x128 (ix2 p q) = _
  rw [rowBcast_apply, rowBcast_apply, colBcast_apply, colBcast_apply, hmean 0]
  unfold normRow
  refine congrArg (fun s => (x0 (ix2 p q) - rowMean (fun k => x0 (ix2 p k))) * Ideal.rsqrt (s + cEps) * x1 (ix1 q) + x2 (ix1 q)) ?_
  show Ideal.div (shapeCast S4000x1 (multiReduction (F := Ideal) (φ := .f32) .add [1] S4000 _ 0x00000000#32 reduces_S4000x128_S4000 (.inl rfl) rfl)
      shapeCasts_S4000_S4000x1 (ix2 p 0)) c128 = rowVar (fun k => x0 (ix2 p k))
  rw [sumCol_apply]
  unfold rowVar
  refine congrArg (Ideal.div · c128) (Finset.sum_congr rfl fun k _ => ?_)
  show (x0 (ix2 p k) - broadcastTo S4000x128 _ broadcasts_S4000x1_S4000x128 (ix2 p k))
      * (x0 (ix2 p k) - broadcastTo S4000x128 _ broadcasts_S4000x1_S4000x128 (ix2 p k)) = _
  rw [colBcast_apply, hmean 0]

end Cert.KernelIdeal.BodyValue

end
-- ==== Proof.Region0.lean ====
/-
  From the normalization region's blocks to its whole output array.

  The region's grid has 25 points; point `t` reads rows `4000 t … 4000 t + 3999` of the node array (all 128 columns),
  the whole gain and offset rows, and writes back the same rows of the output. Row normalization acts row by row, so
  what point `t` writes back is block `t` of the whole array's normalization, and the 25 blocks tile the 100000 rows:
  the output array ends holding `SageSpec.norm` of the arrays the region found.
-/
import proofs.«168293_j10359461118095_1_alg».proof.Proof.Gen.KernelIdeal.Frame
import proofs.«168293_j10359461118095_1_alg».proof.Proof.KernelNorm

set_option maxRecDepth 16384

noncomputable section

open scoped BigOperators

namespace Cert.KernelIdeal.Blocks

open Cert.KernelIdeal Cert.KernelIdeal.Gen Cert.KernelIdeal.BodyValue Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The stored block entry against the whole array's normalization at an index `i`, given where the loaded
    blocks' entries sit in the arrays. -/
theorem norm_block {n : Nat} (A : (⟨2, ![n, 128]⟩ : Shape).Idx → EReal) (γ β : (⟨1, ![128]⟩ : Shape).Idx → EReal)
    (x0 : FVec Ideal S4000x128 .f32) (x1 x2 : FVec Ideal S128 .f32) (p : Fin 4000) (q : Fin 128)
    (i : (⟨2, ![n, 128]⟩ : Shape).Idx)
    (h0 : ∀ k : Fin 128, x0 (ix2 p k) = A (ix2 (i 0) k)) (h1 : x1 (ix1 q) = γ (ix1 (i 1)))
    (h2 : x2 (ix1 q) = β (ix1 (i 1))) (hq : q = i 1) :
    k0_pay1 (F := Ideal) x0 x1 x2 (ix2 p q) = norm A γ β i := by
  rw [pay_norm, h1, h2, show (fun k => x0 (ix2 p k)) = fun k => A (ix2 (i 0) k) from funext h0, hq]
  rfl

/-- The index maps of the region's windows, decided over the grid: the row block moves with the point, the
    parameter rows stay. -/
theorem idx_norm : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the normalization of the arrays the region found. -/
theorem flushed_norm (c : Dev nD) (t : Fin cfg0.N) :
    (dat0 V c).flushed 3 t = ((cfg0.win 3).blk t).view.read (Elt Ideal)
      (norm (n := 100000) (V c main_arg0) (V c main_arg3) (V c main_arg4)) := by
  show (cfg0.win 3).cut (grid0.coords t) ((dat0 V c).after 3 t) = _
  rw [after0_3]
  unfold out0_3
  rw [View.canon_unit_zero zero2]
  simp only [View.ld_unit_zero (S := S4000x128) zero2, View.ld_unit_zero (S := S128) zero1]
  obtain ⟨e00, e01, e1, e2, e30, e31⟩ := idx_norm t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = norm (n := 100000) (V c main_arg0) (V c main_arg3) (V c main_arg4) (((cfg0.win 3).blk t).view.emb (ix2 p q))
  refine norm_block (n := 100000) (V c main_arg0) (V c main_arg3) (V c main_arg4) (iblk0 V c 0 t) (iblk0 V c 1 t)
    (iblk0 V c 2 t) p q (((cfg0.win 3).blk t).view.emb (ix2 p q)) (fun k => ?_) ?_ ?_ ?_
  · show (V c main_arg0 : S100000x128.Idx → EReal) (((cfg0.win 0).blk t).view.emb (ix2 p k)) = (V c main_arg0 : S100000x128.Idx → EReal) _
    refine congrArg (V c main_arg0 : S100000x128.Idx → EReal) (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * k.val = k.val; omega
  · show (V c main_arg3 : S128.Idx → EReal) (((cfg0.win 1).blk t).view.emb (ix1 q)) = (V c main_arg3 : S128.Idx → EReal) _
    refine congrArg (V c main_arg3 : S128.Idx → EReal) (funext fun a => Fin.ext ?_)
    match a with
    | ⟨0, _⟩ => show win0_1.index t (0 : Fin 1) * 128 + 1 * q.val = win0_3.index t (1 : Fin 2) * 128 + 1 * q.val; omega
  · show (V c main_arg4 : S128.Idx → EReal) (((cfg0.win 2).blk t).view.emb (ix1 q)) = (V c main_arg4 : S128.Idx → EReal) _
    refine congrArg (V c main_arg4 : S128.Idx → EReal) (funext fun a => Fin.ext ?_)
    match a with
    | ⟨0, _⟩ => show win0_2.index t (0 : Fin 1) * 128 + 1 * q.val = win0_3.index t (1 : Fin 2) * 128 + 1 * q.val; omega
  · refine Fin.ext ?_
    show q.val = win0_3.index t (1 : Fin 2) * 128 + 1 * q.val
    omega

/-- An index of the output array is in point `t`'s block iff each coordinate is in the block's range. -/
theorem mem_blk_norm (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v0).slice (win0_3.rect t)).set ↔ _
  rw [View.set_slice_whole, Rect.mem_set_unit]
  exact Iff.rfl

/-- Row `r` lies in the block of point `r / 4000`: the 25 blocks tile the array. -/
theorem cover_norm (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  let t : Fin cfg0.N := Fin.cast N_0.symm ⟨(i 0).val / 4000, by omega⟩
  have ht : t.val = (i 0).val / 4000 := rfl
  obtain ⟨-, -, -, -, e30, e31⟩ := idx_norm t
  refine ⟨t, flush0_3 t, ?_⟩
  rw [mem_blk_norm]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The region's output array ends at the normalization of the node, gain and offset arrays it found. -/
theorem final_norm (c : Dev nD) :
    (dat0 V c).arrAt 3 cfg0.N = norm (n := 100000) (V c main_arg0) (V c main_arg3) (V c main_arg4) :=
  (dat0 V c).arrAt_eq_of_cover 3 _ (fun t _ => flushed_norm V c t) cover_norm

end Cert.KernelIdeal.Blocks

end
-- ==== Proof.KernelComb.lean ====
/-
  The combine kernel's body, read at one entry of its output block.

  The body loads a block of 4000 rows of the normalized features, the same rows of the neighbour means, the two
  128 × 128 weight matrices and the bias row. At row `p`, column `q` the stored value is
  `Σ_k hn p k · Wself k q + Σ_k hneigh p k · Wneigh k q + b q` (`SageSpec.combRow`): each product is a matrix product
  into a zero accumulator, so a plain sum over the one contracted coordinate; the narrowing of the operands to a
  shorter float format is the identity on the extended reals.
-/
import proofs.«168293_j10359461118095_1_alg».proof.Proof.KernelNorm

noncomputable section

open scoped BigOperators

namespace Cert.KernelIdeal.BodyValue

open Cert.KernelIdeal Cert.KernelIdeal.Gen Cert.SageSpec
open Idealize.ShloMosaic Idealize.ShloMosaic.ValueIdx

/-- The dimension numbers of both products: rows of the left operand against columns of the right. -/
abbrev DD : DotDims S4000x128 S128x128 S4000x128 := dot_S4000x128_S128x128_S4000x128_1_0_0_1_n_n

theorem lhs_row (j : S4000x128.Idx) (c : DD.contr.Idx) : (DD.lhsIdx j c 0).val = (j 0).val := by
  unfold DotDims.lhsIdx
  rw [dif_neg (show ¬(0 : Fin S4000x128.rank) ∈ DD.lhsBatch by decide),
    dif_pos (show (0 : Fin S4000x128.rank) ∈ DD.lhsNonContracting by decide)]
  rfl

theorem rhs_col (j : S4000x128.Idx) (c : DD.contr.Idx) : (DD.rhsIdx j c 1).val = (j 1).val := by
  unfold DotDims.rhsIdx
  rw [dif_neg (show ¬(1 : Fin S128x128.rank) ∈ DD.rhsBatch by decide),
    dif_pos (show (1 : Fin S128x128.rank) ∈ DD.rhsNonContracting by decide)]
  rfl

/-- A matrix product into a zero accumulator at `(p, q)`: row `p` of the left operand against column `q` of the
    right, summed over the contracted coordinate. -/
theorem matmul_at {φ₁ φ₂ : FTy} (l : FVec Ideal S4000x128 φ₁) (r : FVec Ideal S128x128 φ₂) (p : Fin 4000) (q : Fin 128) :
    matmul DD none l r (constant (F := Ideal) S4000x128 .f32 0x00000000#32) (ix2 p q)
      = ∑ k : Fin 128, l (ix2 p k) * r (ix2 k q) := by
  show FloatOps.matmul DD none l r (constant (F := Ideal) S4000x128 .f32 0x00000000#32) (ix2 p q) = _
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (DD.lhsIdx_val_of_single rfl _ _).trans hk)
  have er : DD.rhsIdx (ix2 p q) ((contrEquiv1 DD 128 rfl rfl).symm k) = ix2 k q := funext fun a => Fin.ext (by
    match a with
    | ⟨0, _⟩ => exact (DD.rhsIdx_val_of_single rfl _ _).trans hk
    | ⟨1, _⟩ => exact rhs_col _ _)
  rw [el, er]

/-- The stored block at `(p, q)`. -/
theorem pay_comb (x0 x1 : FVec Ideal S4000x128 .f32) (x2 x3 : FVec Ideal S128x128 .f32) (x4 : FVec Ideal S128 .f32)
    (p : Fin 4000) (q : Fin 128) :
    k1_pay1 (F := Ideal) x0 x1 x2 x3 x4 (ix2 p q)
      = combRow (fun k => x0 (ix2 p k)) (fun k => x1 (ix2 p k)) (fun k => x2 (ix2 k q)) (fun k => x3 (ix2 k q)) (x4 (ix1 q)) := by
  unfold k1_pay1
  show matmul DD none (truncf .bf16 (shapeCast S4000x128 x0 shapeCasts_S4000x128_S4000x128) bitsLt_bf16_f32)
        (truncf .bf16 x2 bitsLt_bf16_f32) (constant (F := Ideal) S4000x128 .f32 0x00000000#32) (ix2 p q)
      + matmul DD none (truncf .bf16 (shapeCast S4000x128 x1 shapeCasts_S4000x128_S4000x128) bitsLt_bf16_f32)
        (truncf .bf16 x3 bitsLt_bf16_f32) (constant (F := Ideal) S4000x128 .f32 0x00000000#32) (ix2 p q)
      + broadcastTo S4000x128 (shapeCast S1x128 x4 shapeCasts_S128_S1x128) broadcasts_S1x128_S4000x128 (ix2 p q) = _
  rw [matmul_at, matmul_at, rowBcast_apply, shapeCast_self, shapeCast_self]
  rfl

end Cert.KernelIdeal.BodyValue

end
-- ==== Proof.Region1.lean ====
/-
  From the combine region's blocks to its whole output array.

  The region's grid has 25 points; point `t` reads rows `4000 t … 4000 t + 3999` of the normalized features and of the
  neighbour means, both whole weight matrices and the whole bias row, and writes back the same rows of the result.
  Entry `(r, q)` of the combination depends on row `r` of the two feature arrays only, so what point `t` writes back is
  block `t` of the whole arrays' combination, and the 25 blocks tile the 100000 rows: the result array ends holding
  `SageSpec.comb` of the arrays the region found.
-/
import proofs.«168293_j10359461118095_1_alg».proof.Proof.Gen.KernelIdeal.Frame
import proofs.«168293_j10359461118095_1_alg».proof.Proof.KernelComb

set_option maxRecDepth 16384

noncomputable section

open scoped BigOperators

namespace Cert.KernelIdeal.Blocks

open Cert.KernelIdeal Cert.KernelIdeal.Gen Cert.KernelIdeal.BodyValue Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The stored block entry against the whole arrays' combination at an index `i`, given where the loaded blocks'
    entries sit in the arrays. -/
theorem comb_block {n : Nat} (A B : (⟨2, ![n, 128]⟩ : Shape).Idx → EReal) (ws wn : (⟨2, ![128, 128]⟩ : Shape).Idx → EReal)
    (b : (⟨1, ![128]⟩ : Shape).Idx → EReal)
    (x0 x1 : FVec Ideal S4000x128 .f32) (x2 x3 : FVec Ideal S128x128 .f32) (x4 : FVec Ideal S128 .f32)
    (p : Fin 4000) (q : Fin 128) (i : (⟨2, ![n, 128]⟩ : Shape).Idx)
    (h0 : ∀ k : Fin 128, x0 (ix2 p k) = A (ix2 (i 0) k)) (h1 : ∀ k : Fin 128, x1 (ix2 p k) = B (ix2 (i 0) k))
    (h2 : ∀ k : Fin 128, x2 (ix2 k q) = ws (ix2 k (i 1))) (h3 : ∀ k : Fin 128, x3 (ix2 k q) = wn (ix2 k (i 1)))
    (h4 : x4 (ix1 q) = b (ix1 (i 1))) :
    k1_pay1 (F := Ideal) x0 x1 x2 x3 x4 (ix2 p q) = comb A B ws wn b i := by
  rw [pay_comb, h4, show (fun k => x0 (ix2 p k)) = fun k => A (ix2 (i 0) k) from funext h0,
    show (fun k => x1 (ix2 p k)) = fun k => B (ix2 (i 0) k) from funext h1,
    show (fun k => x2 (ix2 k q)) = fun k => ws (ix2 k (i 1)) from funext h2,
    show (fun k => x3 (ix2 k q)) = fun k => wn (ix2 k (i 1)) from funext h3]
  rfl

/-- The index maps of the region's windows, decided over the grid: the two row blocks and the output's move with
    the point, the weights and the bias stay. -/
theorem idx_comb : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the combination of the arrays the region found. -/
theorem flushed_comb (c : Dev nD) (t : Fin cfg1.N) :
    (dat1 V c).flushed 5 t = ((cfg1.win 5).blk t).view.read (Elt Ideal)
      (comb (n := 100000) (V c main_v0) (V c main_v19) (V c main_arg5) (V c main_arg6) (V c main_arg7)) := by
  show (cfg1.win 5).cut (grid1.coords t) ((dat1 V c).after 5 t) = _
  rw [after1_5]
  unfold out1_5
  rw [View.canon_unit_zero zeros2]
  simp only [View.ld_unit_zero (S := S4000x128) zeros2, View.ld_unit_zero (S := S128x128) zeros2,
    View.ld_unit_zero (S := S128) zeros1]
  obtain ⟨e00, e01, e10, e11, e20, e21, e30, e31, e4, e50, e51⟩ := idx_comb t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = comb (n := 100000) (V c main_v0) (V c main_v19) (V c main_arg5) (V c main_arg6) (V c main_arg7)
        (((cfg1.win 5).blk t).view.emb (ix2 p q))
  refine comb_block (n := 100000) (V c main_v0) (V c main_v19) (V c main_arg5) (V c main_arg6) (V c main_arg7)
    (iblk1 V c 0 t) (iblk1 V c 1 t) (iblk1 V c 2 t) (iblk1 V c 3 t) (iblk1 V c 4 t) p q
    (((cfg1.win 5).blk t).view.emb (ix2 p q)) (fun k => ?_) (fun k => ?_) (fun k => ?_) (fun k => ?_) ?_
  · show (V c main_v0 : S100000x128.Idx → EReal) (((cfg1.win 0).blk t).view.emb (ix2 p k)) = (V c main_v0 : S100000x128.Idx → EReal) _
    refine congrArg (V c main_v0 : S100000x128.Idx → EReal) (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  · show (V c main_v19 : S100000x128.Idx → EReal) (((cfg1.win 1).blk t).view.emb (ix2 p k)) = (V c main_v19 : S100000x128.Idx → EReal) _
    refine congrArg (V c main_v19 : S100000x128.Idx → EReal) (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 128 + 1 * k.val = k.val; omega
  · show (V c main_arg5 : S128x128.Idx → EReal) (((cfg1.win 2).blk t).view.emb (ix2 k q)) = (V c main_arg5 : S128x128.Idx → EReal) _
    refine congrArg (V c main_arg5 : S128x128.Idx → EReal) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show (V c main_arg6 : S128x128.Idx → EReal) (((cfg1.win 3).blk t).view.emb (ix2 k q)) = (V c main_arg6 : S128x128.Idx → EReal) _
    refine congrArg (V c main_arg6 : S128x128.Idx → EReal) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show (V c main_arg7 : S128.Idx → EReal) (((cfg1.win 4).blk t).view.emb (ix1 q)) = (V c main_arg7 : S128.Idx → EReal) _
    refine congrArg (V c main_arg7 : S128.Idx → EReal) (funext fun a => Fin.ext ?_)
    match a with
    | ⟨0, _⟩ => show win1_4.index t (0 : Fin 1) * 128 + 1 * q.val = win1_5.index t (1 : Fin 2) * 128 + 1 * q.val; omega

/-- An index of the result array is in point `t`'s block iff each coordinate is in the block's range. -/
theorem mem_blk_comb (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v20).slice (win1_5.rect t)).set ↔ _
  rw [View.set_slice_whole, Rect.mem_set_unit]
  exact Iff.rfl

/-- Row `r` lies in the block of point `r / 4000`: the 25 blocks tile the array. -/
theorem cover_comb (i : S100000x128.Idx) :
    ∃ t : Fin cfg1.N, (cfg1.win 5).flush t = true ∧ i ∈ ((cfg1.win 5).blk t).view.set := by
  have h0 : (i 0).val < 100000 := idx2_lt0 i
  have h1 : (i 1).val < 128 := idx2_lt1 i
  let t : Fin cfg1.N := Fin.cast N_1.symm ⟨(i 0).val / 4000, by omega⟩
  have ht : t.val = (i 0).val / 4000 := rfl
  obtain ⟨-, -, -, -, -, -, -, -, -, e50, e51⟩ := idx_comb t
  refine ⟨t, flush1_5 t, ?_⟩
  rw [mem_blk_comb]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- The region's result array ends at the combination of the arrays it found. -/
theorem final_comb (c : Dev nD) :
    (dat1 V c).arrAt 5 cfg1.N
      = comb (n := 100000) (V c main_v0) (V c main_v19) (V c main_arg5) (V c main_arg6) (V c main_arg7) :=
  (dat1 V c).arrAt_eq_of_cover 5 _ (fun t _ => flushed_comb V c t) cover_comb

end Cert.KernelIdeal.Blocks

end
-- ==== Proof.Glue.lean ====
/-
  The host operations between the two regions, as one function: the mean of the neighbours' normalized features.

  For every edge `e` the row `src e` of the normalized features (a negative index wrapped around by the number of
  rows) is gathered; the gathered rows are added into the rows `dst e` of a zero array (`edgeSum`); the number of
  edges into each row is counted the same way (`inDegree`); and each row's sum is divided by its count, clamped below
  at one (`neighMean`). Both programs apply exactly these operations, so the function is never opened: the two
  sides meet by applying it to equal arguments.

  Read off the kernel's run: the buffer contents when the combine region is entered are the fold of these host
  operations over the contents the normalization region left, so the neighbour-mean array is `neighMean` of the
  normalized array and the two index arrays, and no other buffer the combine region reads is touched.
-/
import proofs.«168293_j10359461118095_1_alg».proof.Proof.Gen.KernelIdeal.Frame
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- The gather's row indices: a negative entry wraps around by the number of rows. -/
def wrapIdx (src : IVec S640000 32) : IVec S640000 32 :=
  select (cmpi .slt src (broadcastInDim S640000 ![] bcast_S_S640000 (constantI S_ 32 0#32)))
    (addi src (broadcastInDim S640000 ![] bcast_S_S640000 (constantI S_ 32 100000#32))) src

/-- The rows `src e` of `hn` added into the rows `dst e` of a zero array. -/
def edgeSum (hn : FVec F S100000x128 .f32) (src dst : IVec S640000 32) : FVec F S100000x128 .f32 :=
  Host.scatterAdd scatter_S100000x128_S640000x1_S640000x128_1_0_0_1
    (broadcastInDim S100000x128 ![] bcast_S_S100000x128 (constant (F := F) S_ .f32 0x00000000#32))
    (broadcastInDim S640000x1 ![0] bcast_S640000_S640000x1_0 dst)
    (Host.gather gather_S100000x128_S640000x1_S640000x128_1_0_n_n_0_1_1128 hn
      (broadcastInDim S640000x1 ![0] bcast_S640000_S640000x1_0 (wrapIdx src)))

/-- The number of edges into each row: ones added into the rows `dst e` of a zero vector. -/
def inDegree (dst : IVec S640000 32) : FVec F S100000 .f32 :=
  Host.scatterAdd scatter_S100000_S640000x1_S640000_n_0_0_1
    (broadcastInDim S100000 ![] bcast_S_S100000 (constant (F := F) S_ .f32 0x00000000#32))
    (broadcastInDim S640000x1 ![0] bcast_S640000_S640000x1_0 dst)
    (broadcastInDim S640000 ![] bcast_S_S640000 (constant (F := F) S_ .f32 0x3F800000#32))

/-- Each row's edge sum divided by its in-degree, the degree clamped below at one. -/
def neighMean (hn : FVec F S100000x128 .f32) (src dst : IVec S640000 32) : FVec F S100000x128 .f32 :=
  Host.divf (edgeSum hn src dst)
    (broadcastInDim S100000x128 ![0, 1] bcast_S100000x1_S100000x128_0_1
      (broadcastInDim S100000x1 ![0] bcast_S100000_S100000x1_0
        (maximumf (inDegree (F := F) dst)
          (broadcastInDim S100000 ![] bcast_S_S100000 (constant (F := F) S_ .f32 0x3F800000#32)))))

variable (m : (ℓ : Loc nD τ sig) → Buf (Elt F) ℓ) (ρ : Dev nD → PrngReg)

set_option maxHeartbeats 4000000 in
/-- When the combine region is entered, the neighbour-mean array holds `neighMean` of what the normalization region
    left in its output array and of the two index arrays. -/
theorem entry_neigh (c : Dev nD) :
    W2 m ρ c (Proc.devRef .tc main_v19)
      = neighMean (F := F) (W1 m ρ c (Proc.devRef .tc main_v0)) (W1 m ρ c (Proc.devRef .tc main_arg1))
          (W1 m ρ c (Proc.devRef .tc main_arg2)) := by
  show StableHlo.after hostOps1 (W1 m ρ c) (Proc.devRef .tc main_v19) = _
  after_results_simp
  rfl

/-- The host operations write neither the normalized array, nor the weights, nor the bias. -/
theorem entry_norm (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem entry_wself (c : Dev nD) : W2 m ρ c (Proc.devRef .tc main_arg5) = W1 m ρ c (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem entry_wneigh (c : Dev nD) : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem entry_bias (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))

end Cert.KernelIdeal.Glue

end
-- ==== Proof.KernelValue.lean ====
/-
  The idealized kernel's result array as one function of its arguments.

  The normalization region leaves `norm h γ β` in its output array; the host operations in between leave
  `neighMean` of that array and the edge index arrays; the combine region leaves the combination of the two with the
  weights and the bias. Composed along the buffer contents at the segment boundaries, the result array ends at
  `sage h src dst γ β Wself Wneigh b`.
-/
import proofs.«168293_j10359461118095_1_alg».proof.Proof.KernelRun
import proofs.«168293_j10359461118095_1_alg».proof.Proof.Region0
import proofs.«168293_j10359461118095_1_alg».proof.Proof.Region1
import proofs.«168293_j10359461118095_1_alg».proof.Proof.Glue

set_option maxRecDepth 16384

noncomputable section

namespace Cert.KernelIdeal.OutRun

open Cert.KernelIdeal Cert.KernelIdeal.Gen Cert.SageSpec
open Idealize.ShloMosaic Idealize.ShloMosaic.TcCoe Idealize.SL.Sem

/-- The whole layer: normalize the node features, average the normalized features over each node's incoming edges,
    and combine the two through the self and neighbour weights and the bias. -/
def sage (h : FVec Ideal S100000x128 .f32) (src dst : IVec S640000 32) (γ β : FVec Ideal S128 .f32)
    (ws wn : FVec Ideal S128x128 .f32) (b : FVec Ideal S128 .f32) : FVec Ideal S100000x128 .f32 :=
  comb (n := 100000) (norm (n := 100000) h γ β)
    (Glue.neighMean (F := Ideal) (norm (n := 100000) h γ β) src dst) ws wn b

variable (m : (ℓ : Loc nD τ sig) → Buf (Elt Ideal) ℓ) (ρ : Dev nD → PrngReg)

/-- What the normalization region leaves in its output array. -/
theorem left_norm (c : Dev nD) :
    W1 m ρ c (Proc.devRef .tc main_v0)
      = norm (n := 100000) (m ((c.tc : Thread nD τ).loc main_arg0)) (m ((c.tc : Thread nD τ).loc main_arg3))
          (m ((c.tc : Thread nD τ).loc main_arg4)) :=
  (W1_arr m ρ c 3).trans (Blocks.final_norm (V0 m ρ) c)

/-- The result array after the run. -/
theorem result_eq (c : Dev nD) :
    W3 m ρ c (Proc.devRef .tc main_v20)
      = sage (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine ((W3_arr m ρ c 5).trans (Blocks.final_comb (V2 m ρ) c)).trans ?_
  show comb (n := 100000) (W2 m ρ c (Proc.devRef .tc main_v0)) (W2 m ρ c (Proc.devRef .tc main_v19))
      (W2 m ρ c (Proc.devRef .tc main_arg5)) (W2 m ρ c (Proc.devRef .tc main_arg6)) (W2 m ρ c (Proc.devRef .tc main_arg7)) = _
  rw [Glue.entry_neigh, Glue.entry_norm, Glue.entry_wself, Glue.entry_wneigh, Glue.entry_bias, left_norm,
    W1_of_ne m ρ c main_arg1 (by decide), W1_of_ne m ρ c main_arg2 (by decide), W1_of_ne m ρ c main_arg5 (by decide),
    W1_of_ne m ρ c main_arg6 (by decide), W1_of_ne m ρ c main_arg7 (by decide)]
  rfl

/-- Every weakly fair execution of the idealized kernel's @main terminates, nothing faulting, with the result array
    at `sage` of the arguments and the arguments as launched. -/
theorem run_sage : θ_run defs (onTc (τ := τ) (main (F := Ideal))) ⟨m, fun _ => 0, ρ⟩ (fun r => ∀ c : Dev nD,
      r.2.mem ((c.tc : Thread nD τ).loc main_v20)
        = sage (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_out m ρ)

end Cert.KernelIdeal.OutRun

end
-- ==== Proof.RefValue.lean ====
/-
  The reference program's result, stage by stage, as the same mathematics.

  The reference computes the row normalization with whole-array host operations (a sum over the columns kept as a
  column, broadcasts along the columns, a gain and an offset broadcast along the rows); read at `(r, q)` that is
  `SageSpec.normRow` of row `r`. Its two matrix products are sums over the one contracted coordinate, so the result
  at `(r, q)` is `SageSpec.combRow`. Between them it applies to its normalized array exactly the host operations the
  kernel's program applies between its two regions (`Glue.neighMean`).
-/
import proofs.«168293_j10359461118095_1_alg».proof.Proof.Gen.ReferenceIdeal.Read
import proofs.«168293_j10359461118095_1_alg».proof.Proof.Glue
import proofs.«168293_j10359461118095_1_alg».proof.Proof.Spec

noncomputable section

open scoped BigOperators

namespace Cert.ReferenceIdeal.RefValue

open Cert.ReferenceIdeal Cert.ReferenceIdeal.Gen Cert.ReferenceIdeal.Read Cert.SageSpec
open Idealize.ShloMosaic Idealize.ShloMosaic.ValueIdx

/-! ## Where each layout operation reads its operand, in coordinates -/

theorem at_v0 (r : Fin 100000) (k : Fin 128) : idx_main_v0 (ix1 r) k = ix2 r k :=
  funext fun a => Fin.ext (by match a with | ⟨0, _⟩ => rfl | ⟨1, _⟩ => rfl)
theorem at_v7 (r : Fin 100000) (k : Fin 128) : idx_main_v7 (ix1 r) k = ix2 r k :=
  funext fun a => Fin.ext (by match a with | ⟨0, _⟩ => rfl | ⟨1, _⟩ => rfl)
theorem at_v1 (r : Fin 100000) (z : Fin 1) : idx_main_v1 (ix2 r z) = ix1 r :=
  funext fun a => Fin.ext (by match a with | ⟨0, _⟩ => rfl)
theorem at_v8 (r : Fin 100000) (z : Fin 1) : idx_main_v8 (ix2 r z) = ix1 r :=
  funext fun a => Fin.ext (by match a with | ⟨0, _⟩ => rfl)
theorem at_v4 (r : Fin 100000) (q : Fin 128) : idx_main_v4 (ix2 r q) = ix2 r (0 : Fin 1) :=
  funext fun a => Fin.ext (by match a with | ⟨0, _⟩ => rfl | ⟨1, _⟩ => rfl)
theorem at_v11 (r : Fin 100000) (q : Fin 128) : idx_main_v11 (ix2 r q) = ix2 r (0 : Fin 1) :=
  funext fun a => Fin.ext (by match a with | ⟨0, _⟩ => rfl | ⟨1, _⟩ => rfl)
theorem at_v16 (r : Fin 100000) (q : Fin 128) : idx_main_v16 (ix2 r q) = ix2 r (0 : Fin 1) :=
  funext fun a => Fin.ext (by match a with | ⟨0, _⟩ => rfl | ⟨1, _⟩ => rfl)
theorem at_v19 (r : Fin 100000) (q : Fin 128) : idx_main_v19 (ix2 r q) = ix2 (0 : Fin 1) q :=
  funext fun a => Fin.ext (by match a with | ⟨0, _⟩ => rfl | ⟨1, _⟩ => rfl)
theorem at_v22 (r : Fin 100000) (q : Fin 128) : idx_main_v22 (ix2 r q) = ix2 (0 : Fin 1) q :=
  funext fun a => Fin.ext (by match a with | ⟨0, _⟩ => rfl | ⟨1, _⟩ => rfl)
theorem at_v47 (r : Fin 100000) (q : Fin 128) : idx_main_v47 (ix2 r q) = ix2 (0 : Fin 1) q :=
  funext fun a => Fin.ext (by match a with | ⟨0, _⟩ => rfl | ⟨1, _⟩ => rfl)
theorem at_v18 (z : Fin 1) (q : Fin 128) : idx_main_v18 (ix2 z q) = ix1 q :=
  funext fun a => Fin.ext (by match a with | ⟨0, _⟩ => rfl)
theorem at_v21 (z : Fin 1) (q : Fin 128) : idx_main_v21 (ix2 z q) = ix1 q :=
  funext fun a => Fin.ext (by match a with | ⟨0, _⟩ => rfl)
theorem at_v46 (z : Fin 1) (q : Fin 128) : idx_main_v46 (ix2 z q) = ix1 q :=
  funext fun a => Fin.ext (by match a with | ⟨0, _⟩ => rfl)
theorem at_l43 (r : Fin 100000) (q k : Fin 128) : lidx_main_v43 (ix2 r q) k = ix2 r k :=
  funext fun a => Fin.ext (by match a with | ⟨0, _⟩ => rfl | ⟨1, _⟩ => rfl)
theorem at_r43 (r : Fin 100000) (q k : Fin 128) : ridx_main_v43 (ix2 r q) k = ix2 k q :=
  funext fun a => Fin.ext (by match a with | ⟨0, _⟩ => rfl | ⟨1, _⟩ => rfl)
theorem at_l44 (r : Fin 100000) (q k : Fin 128) : lidx_main_v44 (ix2 r q) k = ix2 r k :=
  funext fun a => Fin.ext (by match a with | ⟨0, _⟩ => rfl | ⟨1, _⟩ => rfl)
theorem at_r44 (r : Fin 100000) (q k : Fin 128) : ridx_main_v44 (ix2 r q) k = ix2 k q :=
  funext fun a => Fin.ext (by match a with | ⟨0, _⟩ => rfl | ⟨1, _⟩ => rfl)

/-! ## The normalization -/

/-- The mean column at row `r`: the initial value of the host's sum is zero. -/
theorem ref_mean (x0 : FVec Ideal S100000x128 .f32) (r : Fin 100000) :
    val_main_v3 (F := Ideal) x0 (ix2 r (0 : Fin 1)) = rowMean (fun k => x0 (ix2 r k)) := by
  rw [val_main_v3_apply, val_main_v1_apply, at_v1, val_main_v0_apply, val_main_v2_apply]
  simp only [at_v0]
  show Ideal.div (Ideal.ofBits .f32 0x00000000#32 + ∑ k : Fin 128, x0 (ix2 r k)) c128 = _
  rw [Ideal.ofBits_zero_f32, zero_add]
  rfl

/-- The variance column at row `r`. -/
theorem ref_var (x0 : FVec Ideal S100000x128 .f32) (r : Fin 100000) :
    val_main_v10 (F := Ideal) x0 (ix2 r (0 : Fin 1)) = rowVar (fun k => x0 (ix2 r k)) := by
  rw [val_main_v10_apply, val_main_v8_apply, at_v8, val_main_v7_apply, val_main_v9_apply]
  simp only [at_v7, val_main_v6_apply, val_main_v5_apply, val_main_v4_apply, at_v4, ref_mean]
  show Ideal.div (Ideal.ofBits .f32 0x00000000#32
      + ∑ k : Fin 128, (x0 (ix2 r k) - rowMean fun k => x0 (ix2 r k)) * (x0 (ix2 r k) - rowMean fun k => x0 (ix2 r k))) c128 = _
  rw [Ideal.ofBits_zero_f32, zero_add]
  rfl

/-- The reference's normalized array is the row normalization of its arguments. -/
theorem ref_norm (x0 : FVec Ideal S100000x128 .f32) (x3 x4 : FVec Ideal S128 .f32) :
    val_main_v23 (F := Ideal) x0 x3 x4 = norm (n := 100000) x0 x3 x4 := by
  funext i
  obtain ⟨r, q, rfl⟩ : ∃ (r : Fin 100000) (q : Fin 128), i = ix2 r q := ⟨i 0, i 1, eq_ix2 i⟩
  rw [norm_apply, val_main_v23_apply, val_main_v20_apply, val_main_v17_apply, val_main_v12_apply, val_main_v11_apply,
    at_v11, ref_mean, val_main_v16_apply, at_v16, val_main_v15_apply, val_main_v14_apply, ref_var, val_main_v13_apply,
    val_main_v19_apply, at_v19, val_main_v18_apply, at_v18, val_main_v22_apply, at_v22, val_main_v21_apply, at_v21]
  rfl

/-! ## The host operations in between -/

/-- The reference's neighbour means are the kernel program's host operations applied to the reference's normalized
    array: the two programs print the same operations with the same dimension records. -/
theorem ref_neigh (x0 : FVec Ideal S100000x128 .f32) (x1 x2 : IVec S640000 32) (x3 x4 : FVec Ideal S128 .f32) :
    val_main_v42 (F := Ideal) x0 x1 x2 x3 x4
      = Cert.KernelIdeal.Glue.neighMean (F := Ideal) (val_main_v23 (F := Ideal) x0 x3 x4) x1 x2 := by
  unfold val_main_v42 val_main_v33 val_main_v30
  rfl

/-! ## The combination -/

/-- The reference's result is the combination of its normalized array, its neighbour means, the weights and the bias. -/
theorem ref_comb (x0 : FVec Ideal S100000x128 .f32) (x1 x2 : IVec S640000 32) (x3 x4 : FVec Ideal S128 .f32)
    (x5 x6 : FVec Ideal S128x128 .f32) (x7 : FVec Ideal S128 .f32) :
    val_main_v48 (F := Ideal) x0 x1 x2 x3 x4 x5 x6 x7
      = comb (n := 100000) (val_main_v23 (F := Ideal) x0 x3 x4) (val_main_v42 (F := Ideal) x0 x1 x2 x3 x4) x5 x6 x7 := by
  funext i
  obtain ⟨r, q, rfl⟩ : ∃ (r : Fin 100000) (q : Fin 128), i = ix2 r q := ⟨i 0, i 1, eq_ix2 i⟩
  rw [comb_apply, val_main_v48_apply, val_main_v45_apply, val_main_v43_apply, val_main_v44_apply, val_main_v47_apply,
    at_v47, val_main_v46_apply, at_v46]
  simp only [at_l43, at_r43, at_l44, at_r44]
  rfl

end Cert.ReferenceIdeal.RefValue

end
-- ==== Proof.lean ====
/-
  The certificate of one graph layer: row normalization of the node features, the mean of the normalized features
  over each node's incoming edges, and the combination of the two through the self and neighbour weights and a bias.

  The kernel's program runs the normalization and the combination as two tiled regions, 4000 rows at a time, with the
  edge gather, the scatter-adds and the division as host operations between them; the reference runs everything as
  host operations on whole arrays. On the extended reals both compute `sage` of the arguments: the normalization
  acts row by row and the blocks tile the rows; the products into a zero accumulator and the host's contractions are
  the same sums; the host operations in between are the same operations applied to equal arrays. No law of
  arithmetic beyond `0 + x = x` joins the two sides, so the finiteness of the inputs is never used.

  The three frames are the generated ones (the reference's is its generated run with the result dropped), and the
  idealization rewrote nothing, so its conjunct is trivial.
-/
import proofs.«168293_j10359461118095_1_alg».proof.Defs
import proofs.«168293_j10359461118095_1_alg».proof.Proof.Gen.Kernel
import proofs.«168293_j10359461118095_1_alg».proof.Proof.Gen.Kernel.Skeleton
import proofs.«168293_j10359461118095_1_alg».proof.Proof.Gen.Kernel.Launch
import proofs.«168293_j10359461118095_1_alg».proof.Proof.Gen.Kernel.Points
import proofs.«168293_j10359461118095_1_alg».proof.Proof.Gen.Kernel.Frame
import proofs.«168293_j10359461118095_1_alg».proof.Proof.Gen.KernelIdeal
import proofs.«168293_j10359461118095_1_alg».proof.Proof.Gen.KernelIdeal.Skeleton
import proofs.«168293_j10359461118095_1_alg».proof.Proof.Gen.KernelIdeal.Launch
import proofs.«168293_j10359461118095_1_alg».proof.Proof.Gen.KernelIdeal.Points
import proofs.«168293_j10359461118095_1_alg».proof.Proof.Gen.KernelIdeal.Frame
import proofs.«168293_j10359461118095_1_alg».proof.Proof.Gen.ReferenceIdeal
import proofs.«168293_j10359461118095_1_alg».proof.Proof.Gen.Pre_finite_inputs
import proofs.«168293_j10359461118095_1_alg».proof.Proof.Gen.ReferenceIdeal.Run
import proofs.«168293_j10359461118095_1_alg».proof.Proof.Gen.ReferenceIdeal.Read
import proofs.«168293_j10359461118095_1_alg».proof.Proof.KernelValue
import proofs.«168293_j10359461118095_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result array at `sage` of the
    arguments: the kernel's by the composition of its two regions and the host operations between them, the
    reference's by reading its stages as the same normalization, neighbour mean and combination. -/
theorem algebraic : Cert.algebraic_KernelIdeal_ReferenceIdeal := by
  intro m ρ m' ρ' _ hagree
  refine ⟨_, Cert.KernelIdeal.OutRun.run_sage m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v48_eq, Cert.ReferenceIdeal.RefValue.ref_comb,
    Cert.ReferenceIdeal.RefValue.ref_neigh, Cert.ReferenceIdeal.RefValue.ref_norm, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
